-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S512x128 : Shape := ⟨2, ![512, 128]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512x128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S1600000 .f32) (main_arg3 : FVec F S512x128 .f32) (main_arg4 : FVec F S512 .f32) (main_arg5 : FVec F S512x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S512x128 : Shape := ⟨2, ![512, 128]⟩
abbrev S512 : Shape := ⟨1, ![512]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S128x512 : Shape := ⟨2, ![128, 512]⟩
abbrev S256x512 : Shape := ⟨2, ![256, 512]⟩
abbrev S1x512 : Shape := ⟨2, ![1, 512]⟩
abbrev S100000x512 : Shape := ⟨2, ![100000, 512]⟩
abbrev S4000x128 : Shape := ⟨2, ![4000, 128]⟩
abbrev S4000x512 : Shape := ⟨2, ![4000, 512]⟩
abbrev S4000x256 : Shape := ⟨2, ![4000, 256]⟩

abbrev nBuf : Space → Nat
  | .hbm => 34
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .bf16⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .bf16⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x512, .f32⟩
  | .hbm, ⟨29, _⟩ => ⟨S128x512, .f32⟩
  | .hbm, ⟨30, _⟩ => ⟨S256x512, .f32⟩
  | .hbm, ⟨31, _⟩ => ⟨S256x512, .bf16⟩
  | .hbm, ⟨32, _⟩ => ⟨S1x512, .f32⟩
  | .hbm, ⟨33, _⟩ => ⟨S100000x512, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S256x512, .bf16⟩
  | .local _ .vmem, ⟨5, _⟩ => ⟨S1x512, .f32⟩
  | .local _ .vmem, ⟨6, _⟩ => ⟨S4000x512, .f32⟩
  | .local _ .vmem, ⟨7, _⟩ => ⟨S4000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S512x128_S128x512_1_0 : S512x128.Transposes [1, 0] S128x512
  concatenates_S128x512_S128x512_S256x512_d0 : Shape.Concatenates [S128x512, S128x512] S256x512 0
  shapeCasts_S512_S1x512 : S512.ShapeCasts S1x512
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x256_d1 : Shape.Concatenates [S4000x128, S4000x128] S4000x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S4000x512_S4000x512_0_0 : ∀ a, (![0, 0] : Fin 2 → Nat) a + S4000x512.size a ≤ S4000x512.size a
  h_S4000x512 : 0 < S4000x512.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x256_S256x512_S4000x512_1_0_0_1_n_n_wf : DotDims.WF S4000x256 S256x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x512.size a ≤ S100000x512.size a
  hwx0_4 : ∀ i : grid0.Coords, EltTy.bits .f32 = 32 ∨ (Rect.block (s := S100000x512) S4000x512.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S4000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S512x128 : Shape := ⟨2, ![512, 128]⟩
abbrev S512 : Shape := ⟨1, ![512]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S100000x512 : Shape := ⟨2, ![100000, 512]⟩
abbrev S1x512 : Shape := ⟨2, ![1, 512]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x512, .f32⟩
  | .hbm, ⟨27, _⟩ => ⟨S1x512, .f32⟩
  | .hbm, ⟨28, _⟩ => ⟨S100000x512, .f32⟩
  | .hbm, ⟨29, _⟩ => ⟨S100000x512, .f32⟩
  | .hbm, ⟨30, _⟩ => ⟨S100000x512, .f32⟩
  | .hbm, ⟨31, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S512x128_S100000x512_1_1_0_0_n_n_wf : DotDims.WF S100000x128 S512x128 S100000x512 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S512x128_S100000x512_1_1_0_0_n_n : DotDims S100000x128 S512x128 S100000x512 where
  lhsContracting := [1]
  rhsContracting := [1]
  lhsNonContracting := [0]
  rhsNonContracting := [0]
  lhsBatch := []
  rhsBatch := []
  wf := dot_S100000x128_S512x128_S100000x512_1_1_0_0_n_n_wf

class Facts : Prop extends Facts₀ where

variable [Facts]
-- ==== Proof.Spec.lean ====
/-
  One dense graph-convolution layer as a function of its operands, entry by entry, on the extended reals:

      out[n, o] = (∑ d, agg[n, d] · W_l[o, d] + b[o]) + ∑ d, x[n, d] · W_r[o, d]

  over 100000 nodes, 128 input features and 512 output features, where `agg` is the weighted sum of the
  neighbours' features (any array of the nodes' shape will do here: this file never looks inside it).

  The same entry can be computed with ONE product instead of two: put `agg[n, ·]` and `x[n, ·]` side by side as a
  row of 256 numbers, stack the columns `W_l[o, ·]` and `W_r[o, ·]` the same way, take the single sum of the 256
  products and add `b[o]` at the end. `stacked_sum` says the two computations agree. It uses only that a sum over
  `Fin (128 + 128)` is the sum over the first 128 indices plus the sum over the last 128, and that addition of
  extended reals is commutative and associative — so it holds for every extended real, the infinities included, and
  nothing about the operands being finite is needed.
-/
import Idealize.ShloMosaic.PureOps.Ideal
import Idealize.ShloMosaic.Lib.ValueIdx

noncomputable section

open scoped BigOperators

namespace Cert.GraphConv

open Idealize.ShloMosaic Idealize.ShloMosaic.ValueIdx

/-- Node features, and messages aggregated per node: 100000 nodes, 128 features each. -/
abbrev Nodes : Shape := ⟨2, ![100000, 128]⟩
/-- A weight matrix, one row per output feature. -/
abbrev Weights : Shape := ⟨2, ![512, 128]⟩
/-- The bias, one entry per output feature. -/
abbrev Bias : Shape := ⟨1, ![512]⟩
/-- The layer's result: 512 output features per node. -/
abbrev Result : Shape := ⟨2, ![100000, 512]⟩

/-- Entry (n, o) of the layer: the aggregated messages through `W_l`, plus the bias, plus the node's own features
    through `W_r`, associated in that order. -/
def layerAt (agg x : Nodes.Idx → EReal) (wl : Weights.Idx → EReal) (b : Bias.Idx → EReal) (wr : Weights.Idx → EReal)
    (n : Fin 100000) (o : Fin 512) : EReal :=
  ((∑ d : Fin 128, agg (ix2 n d) * wl (ix2 o d)) + b (ix1 o)) + ∑ d : Fin 128, x (ix2 n d) * wr (ix2 o d)

/-- The layer as one array. -/
def layer (agg x : Nodes.Idx → EReal) (wl : Weights.Idx → EReal) (b : Bias.Idx → EReal) (wr : Weights.Idx → EReal) :
    Result.Idx → EReal :=
  fun i => layerAt agg x wl b wr (i 0) (i 1)

theorem layer_ix2 (agg x : Nodes.Idx → EReal) (wl : Weights.Idx → EReal) (b : Bias.Idx → EReal) (wr : Weights.Idx → EReal)
    (n : Fin 100000) (o : Fin 512) : layer agg x wl b wr (ix2 n o) = layerAt agg x wl b wr n o := rfl

/-- A sum of 256 terms whose first 128 are `f` and whose last 128 are `g`, with `b` added at the end, is
    `(∑ f + b) + ∑ g`: split the index range in two, then move `b` inside. -/
theorem stacked_sum (h : Fin 256 → EReal) (f g : Fin 128 → EReal) (b : EReal)
    (hf : ∀ d : Fin 128, h (Fin.castAdd 128 d) = f d) (hg : ∀ d : Fin 128, h (Fin.natAdd 128 d) = g d) :
    (∑ k : Fin 256, h k) + b = ((∑ d : Fin 128, f d) + b) + ∑ d : Fin 128, g d := by
  have split : (∑ k : Fin 256, h k) = (∑ d : Fin 128, f d) + ∑ d : Fin 128, g d := by
    refine (Fin.sum_univ_add (a := 128) (b := 128) h).trans ?_
    rw [Finset.sum_congr rfl fun d _ => hf d, Finset.sum_congr rfl fun d _ => hg d]
  rw [split, add_right_comm]

end Cert.GraphConv

end
-- ==== Proof.Reference.lean ====
/-
  The reference program's result, read entry by entry, is the graph-convolution layer of Spec.lean applied to the
  aggregated messages and the arguments.

  The reference ends with two contractions over the 128 input features — the aggregated messages against `W_l` and the
  node features against `W_r`, each summing `lhs[n, d] · rhs[o, d]` over `d` — the bias broadcast along the nodes and
  added to the first, and the second added last. Read at entry (n, o) that is, term for term, `layerAt`: the only work is
  to say that the index each stage reads its operand at is the index built from the coordinates n, o and d.
  The aggregated messages are whatever the scatter-add stage produced; that stage is kept closed.
-/
import proofs.«160948_j54778012893227_2_alg».proof.Proof.Gen.ReferenceIdeal.Read
import proofs.«160948_j54778012893227_2_alg».proof.Proof.Spec

noncomputable section

open scoped BigOperators

namespace Cert.ReferenceIdeal.Layer

open Cert.ReferenceIdeal Cert.ReferenceIdeal.Read Cert.GraphConv
open Idealize.ShloMosaic Idealize.ShloMosaic.ValueIdx

/-- The left operand of either contraction is read at (n, d) … -/
theorem lidx17 (n : Fin 100000) (o : Fin 512) (d : Fin 128) : lidx_main_v17 (ix2 n o) d = ix2 n d :=
  funext fun a => Fin.ext (by match a with | ⟨0, _⟩ => rfl | ⟨1, _⟩ => rfl)
/-- … and the right operand at (o, d). -/
theorem ridx17 (n : Fin 100000) (o : Fin 512) (d : Fin 128) : ridx_main_v17 (ix2 n o) d = ix2 o d :=
  funext fun a => Fin.ext (by match a with | ⟨0, _⟩ => rfl | ⟨1, _⟩ => rfl)
theorem lidx21 (n : Fin 100000) (o : Fin 512) (d : Fin 128) : lidx_main_v21 (ix2 n o) d = ix2 n d :=
  funext fun a => Fin.ext (by match a with | ⟨0, _⟩ => rfl | ⟨1, _⟩ => rfl)
theorem ridx21 (n : Fin 100000) (o : Fin 512) (d : Fin 128) : ridx_main_v21 (ix2 n o) d = ix2 o d :=
  funext fun a => Fin.ext (by match a with | ⟨0, _⟩ => rfl | ⟨1, _⟩ => rfl)
/-- The bias, broadcast to a row and then along the nodes, is read at o. -/
theorem bias_idx (n : Fin 100000) (o : Fin 512) : idx_main_v18 (idx_main_v19 (ix2 n o)) = ix1 o :=
  funext fun a => Fin.ext (by match a with | ⟨0, _⟩ => rfl)

/-- The reference's result is the layer of the aggregated messages (the scatter-add stage, unopened), the node
    features, the two weight matrices and the bias. -/
theorem result_is_layer (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 : (⟨S512, .f32⟩ : BufTy).Contents (Elt Ideal)) (x5 : (⟨S512x128, .f32⟩ : BufTy).Contents (Elt Ideal)) :
    val_main_v22 (F := Ideal) x0 x1 x2 x3 x4 x5 = layer (val_main_v16 (F := Ideal) x0 x1 x2) x0 x3 x4 x5 := by
  funext i
  obtain ⟨n, o, rfl⟩ : ∃ (n : Fin 100000) (o : Fin 512), i = ix2 n o := ⟨i 0, i 1, eq_ix2 i⟩
  rw [val_main_v22_apply, val_main_v20_apply, val_main_v17_apply, val_main_v21_apply, val_main_v19_apply, val_main_v18_apply,
    layer_ix2]
  simp only [lidx17, ridx17, lidx21, ridx21, bias_idx]
  rfl

end Cert.ReferenceIdeal.Layer

end
-- ==== Proof.Operands.lean ====
/-
  The two small operands the program prepares for the kernel before launching it, read at an entry.

  The weights: `W_l` and `W_r` (512 × 128 each, one row per output feature) are transposed to 128 × 512 and stacked
  on top of each other into one 256 × 512 matrix, then narrowed to a shorter float format — the identity on the
  extended reals. So row k, column q of the stack is `W_l[q, k]` for k < 128 and `W_r[q, k − 128]` from there on.

  The bias: the 512 entries reshaped to one row, whose entry (0, q) is `b[q]`.
-/
import proofs.«160948_j54778012893227_2_alg».proof.Proof.Gen.KernelIdeal
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.ValueIdx

/-! ## The stacked weights -/

/-- `W_l` transposed on top of `W_r` transposed. -/
def stackedWeights (wl wr : FVec Ideal S512x128 .f32) : FVec Ideal S256x512 .bf16 :=
  truncf .bf16
    (concatenate S256x512 0
      [⟨S128x512, transpose S128x512 [1, 0] wl transposes_S512x128_S128x512_1_0⟩,
        ⟨S128x512, transpose S128x512 [1, 0] wr transposes_S512x128_S128x512_1_0⟩]
      concatenates_S128x512_S128x512_S256x512_d0)
    bitsLt_bf16_f32

/-- Entry (d, q) of a transposed weight matrix is entry (q, d) of the matrix. -/
theorem transposed_apply (w : FVec Ideal S512x128 .f32) (d : Fin 128) (q : Fin 512) :
    transpose S128x512 [1, 0] w transposes_S512x128_S128x512_1_0 (ix2 d q) = w (ix2 q d) :=
  transpose_apply [1, 0] w transposes_S512x128_S128x512_1_0 (ix2 d q) (ix2 q d) (fun b => by
    match b with
    | ⟨0, _⟩ => rfl
    | ⟨1, _⟩ => rfl)

/-- A row of the upper half of the stack is a column of `W_l`. -/
theorem stackedWeights_upper (wl wr : FVec Ideal S512x128 .f32) (d : Fin 128) (q : Fin 512) :
    stackedWeights wl wr (ix2 (Fin.castAdd 128 d) q) = wl (ix2 q d) := by
  unfold stackedWeights
  refine (concatenate_pair_apply_left (0 : Fin S256x512.rank) _ _ concatenates_S128x512_S128x512_S256x512_d0
    (ix2 (Fin.castAdd 128 d) q) rfl (ix2 d q) (fun b => ?_)).trans (transposed_apply wl d q)
  match b with
  | ⟨0, _⟩ => rfl
  | ⟨1, _⟩ => rfl

/-- A row of the lower half of the stack is a column of `W_r`. -/
theorem stackedWeights_lower (wl wr : FVec Ideal S512x128 .f32) (d : Fin 128) (q : Fin 512) :
    stackedWeights wl wr (ix2 (Fin.natAdd 128 d) q) = wr (ix2 q d) := by
  unfold stackedWeights
  refine (concatenate_pair_apply_right (0 : Fin S256x512.rank) _ _ concatenates_S128x512_S128x512_S256x512_d0
    (ix2 (Fin.natAdd 128 d) q) rfl rfl (ix2 d q) (fun b hb => ?_) ?_).trans (transposed_apply wr d q)
  · match b with
    | ⟨0, _⟩ => exact absurd rfl hb
    | ⟨1, _⟩ => rfl
  · show d.val + 128 = 128 + d.val
    omega

/-! ## The bias as a row -/

/-- Entry (0, q) of the bias reshaped to one row is entry q of the bias. -/
theorem biasRow_apply (b : FVec Ideal S512 .f32) (q : Fin 512) :
    shapeCast S1x512 b shapeCasts_S512_S1x512 (ix2 (0 : Fin 1) q) = b (ix1 q) :=
  shapeCast_apply b shapeCasts_S512_S1x512 (ix2 (0 : Fin 1) q) (ix1 q) (by
    rw [Shape.rowMajor_val_one, Shape.rowMajor_val_two]
    show q.val = 0 * 512 + q.val
    omega)

end Cert.KernelIdeal.Operands

end
-- ==== Proof.Found.lean ====
/-
  The three arrays the kernel's region finds that the program itself wrote before launching it, each as a function
  of the program's arguments.

  * The aggregated messages. The program gathers, for every edge, the source node's features (a negative source index
    counted from the end), scales them by the edge's weight and adds them into the destination node's row. It gathers
    from a copy of the features narrowed to a shorter float format and widens the gathered rows back; on the extended
    reals both format changes are the identity, so the array is exactly what the reference's own gather, scale and
    scatter-add stage computes from the same three arguments. That stage is named, never opened: whatever it is, it is
    the same function on both sides.
  * The stacked weights: `W_l` transposed on top of `W_r` transposed (Operands.lean).
  * The bias reshaped to one row.
-/
import proofs.«160948_j54778012893227_2_alg».proof.Proof.Gen.KernelIdeal.Frame
import proofs.«160948_j54778012893227_2_alg».proof.Proof.Gen.ReferenceIdeal.Read
import proofs.«160948_j54778012893227_2_alg».proof.Proof.Operands
import Idealize.ShloMosaic.Lib.StableHlo.Run

noncomputable section

namespace Cert.KernelIdeal.Found

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 400000 in
/-- The aggregated messages are the reference's scatter-add stage of the features, the edges and the edge weights. -/
theorem aggregated (c : Dev nD) :
    (V m c main_v18 : S100000x128.Idx → EReal)
      = Cert.ReferenceIdeal.Read.val_main_v16 (F := Ideal) (m ((c : Thread nD τ).loc main_arg0))
          (m ((c : Thread nD τ).loc main_arg1)) (m ((c : Thread nD τ).loc main_arg2)) := by
  dsimp only [V, hostOps0]
  after_results
  rfl

set_option maxHeartbeats 400000 in
/-- The weights the kernel multiplies by are `W_l` transposed stacked on `W_r` transposed. -/
theorem weights (c : Dev nD) :
    (V m c main_v22 : S256x512.Idx → EReal)
      = Operands.stackedWeights (m ((c : Thread nD τ).loc main_arg3)) (m ((c : Thread nD τ).loc main_arg5)) := by
  dsimp only [V, hostOps0]
  after_results
  rfl

set_option maxHeartbeats 400000 in
/-- The bias the kernel adds is the bias argument as one row. -/
theorem biasRow (c : Dev nD) :
    (V m c main_v23 : S1x512.Idx → EReal)
      = shapeCast S1x512 (m ((c : Thread nD τ).loc main_arg4)) shapeCasts_S512_S1x512 := by
  dsimp only [V, hostOps0]
  after_results
  rfl

end Cert.KernelIdeal.Found

end
-- ==== Proof.Payload.lean ====
/-
  What the kernel body computes for one tile of 4000 nodes, read at one entry.

  The body loads a tile of aggregated messages and the same tile of node features (4000 × 128 each), the stacked
  weights (256 × 512) and the bias as a row (1 × 512). It puts the two tiles side by side into a 4000 × 256 matrix,
  multiplies that by the stacked weights into a zero accumulator, and adds the bias row to every row of the product.
  On the extended reals the narrowing of the operands to a shorter float format is the identity and the product's
  entry is the plain sum over the 256 contracted columns, so entry (p, q) of what the body stores is

      ∑ k < 256, sideBySide[p, k] · weights[k, q]  +  bias[0, q]

  where `sideBySide[p, k]` is the first tile's `[p, k]` for k < 128 and the second tile's `[p, k − 128]` from there on.
-/
import proofs.«160948_j54778012893227_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The two loaded tiles side by side -/

/-- The matrix product's left operand: the first tile in columns 0 … 127, the second in columns 128 … 255. -/
def sideBySide (v0 v3 : Vec Ideal S4000x128 .f32) : FVec Ideal S4000x256 .bf16 :=
  concatenate S4000x256 1
    [⟨S4000x128, truncf .bf16 v0 bitsLt_bf16_f32⟩, ⟨S4000x128, truncf .bf16 v3 bitsLt_bf16_f32⟩]
    concatenates_S4000x128_S4000x128_S4000x256_d1

/-- A column of the left half reads the first tile at that column. -/
theorem sideBySide_left (v0 v3 : Vec Ideal S4000x128 .f32) (p : Fin 4000) (d : Fin 128) :
    sideBySide v0 v3 (ix2 p (Fin.castAdd 128 d)) = v0 (ix2 p d) := by
  unfold sideBySide
  refine (concatenate_pair_apply_left (1 : Fin S4000x256.rank) _ _ concatenates_S4000x128_S4000x128_S4000x256_d1
    (ix2 p (Fin.castAdd 128 d)) rfl (ix2 p d) (fun b => ?_)).trans ?_
  · match b with
    | ⟨0, _⟩ => rfl
    | ⟨1, _⟩ => rfl
  · rfl

/-- A column of the right half reads the second tile 128 columns to the left. -/
theorem sideBySide_right (v0 v3 : Vec Ideal S4000x128 .f32) (p : Fin 4000) (d : Fin 128) :
    sideBySide v0 v3 (ix2 p (Fin.natAdd 128 d)) = v3 (ix2 p d) := by
  unfold sideBySide
  refine (concatenate_pair_apply_right (1 : Fin S4000x256.rank) _ _ concatenates_S4000x128_S4000x128_S4000x256_d1
    (ix2 p (Fin.natAdd 128 d)) rfl rfl (ix2 p d) (fun b hb => ?_) ?_).trans ?_
  · match b with
    | ⟨0, _⟩ => rfl
    | ⟨1, _⟩ => exact absurd rfl hb
  · show d.val + 128 = 128 + d.val
    omega
  · rfl

/-! ## The product's operands at a contracted column -/

/-- The left operand is read on the output's row … -/
theorem lhs_row (i : S4000x512.Idx) (k : dot_S4000x256_S256x512_S4000x512_1_0_0_1_n_n.contr.Idx) :
    (dot_S4000x256_S256x512_S4000x512_1_0_0_1_n_n.lhsIdx i k 0).val = (i 0).val := by
  unfold DotDims.lhsIdx
  rw [dif_neg (show ¬(0 : Fin S4000x256.rank) ∈ dot_S4000x256_S256x512_S4000x512_1_0_0_1_n_n.lhsBatch by decide),
    dif_pos (show (0 : Fin S4000x256.rank) ∈ dot_S4000x256_S256x512_S4000x512_1_0_0_1_n_n.lhsNonContracting by decide)]
  rfl
/-- … at the contracted column; -/
theorem lhs_col (i : S4000x512.Idx) (k : dot_S4000x256_S256x512_S4000x512_1_0_0_1_n_n.contr.Idx) :
    (dot_S4000x256_S256x512_S4000x512_1_0_0_1_n_n.lhsIdx i k 1).val = (k ⟨0, by decide⟩).val :=
  dot_S4000x256_S256x512_S4000x512_1_0_0_1_n_n.lhsIdx_val_of_single rfl i k
/-- the right operand at the contracted column as its row … -/
theorem rhs_row (i : S4000x512.Idx) (k : dot_S4000x256_S256x512_S4000x512_1_0_0_1_n_n.contr.Idx) :
    (dot_S4000x256_S256x512_S4000x512_1_0_0_1_n_n.rhsIdx i k 0).val = (k ⟨0, by decide⟩).val :=
  dot_S4000x256_S256x512_S4000x512_1_0_0_1_n_n.rhsIdx_val_of_single rfl i k
/-- … on the output's column. -/
theorem rhs_col (i : S4000x512.Idx) (k : dot_S4000x256_S256x512_S4000x512_1_0_0_1_n_n.contr.Idx) :
    (dot_S4000x256_S256x512_S4000x512_1_0_0_1_n_n.rhsIdx i k 1).val = (i 1).val := by
  unfold DotDims.rhsIdx
  rw [dif_neg (show ¬(1 : Fin S256x512.rank) ∈ dot_S4000x256_S256x512_S4000x512_1_0_0_1_n_n.rhsBatch by decide),
    dif_pos (show (1 : Fin S256x512.rank) ∈ dot_S4000x256_S256x512_S4000x512_1_0_0_1_n_n.rhsNonContracting by decide)]
  rfl

/-! ## The tile's entry -/

/-- Entry (p, q) of what the body stores: the sum over the 256 stacked columns of the side-by-side row against the
    weights' column, plus the bias at q. -/
theorem entry (v0 v3 : Vec Ideal S4000x128 .f32) (v6 : Vec Ideal S256x512 .bf16) (v9 : Vec Ideal S1x512 .f32)
    (p : Fin 4000) (q : Fin 512) :
    k0_pay1 (F := Ideal) v0 v3 v6 v9 (ix2 p q)
      = (∑ k : Fin 256, sideBySide v0 v3 (ix2 p k) * v6 (ix2 k q)) + v9 (ix2 (0 : Fin 1) q) := by
  unfold k0_pay1
  rw [addf_apply]
  refine congrArg₂ (· + ·) ?_ ?_
  · -- the product into the zero accumulator is the sum over the contracted columns
    refine (Ideal.matmul_constant_zero_apply dot_S4000x256_S256x512_S4000x512_1_0_0_1_n_n none _ _ (ix2 p q)).trans ?_
    rw [← Equiv.sum_comp (contrEquiv1 dot_S4000x256_S256x512_S4000x512_1_0_0_1_n_n 256 rfl rfl).symm]
    refine Finset.sum_congr rfl fun k _ => ?_
    have hk := contrEquiv1_symm_val dot_S4000x256_S256x512_S4000x512_1_0_0_1_n_n 256 rfl rfl k
    have el : dot_S4000x256_S256x512_S4000x512_1_0_0_1_n_n.lhsIdx (ix2 p q)
        ((contrEquiv1 dot_S4000x256_S256x512_S4000x512_1_0_0_1_n_n 256 rfl rfl).symm k) = ix2 p k :=
      funext fun a => Fin.ext (by
        match a with
        | ⟨0, _⟩ => exact lhs_row _ _
        | ⟨1, _⟩ => exact (lhs_col _ _).trans hk)
    have er : dot_S4000x256_S256x512_S4000x512_1_0_0_1_n_n.rhsIdx (ix2 p q)
        ((contrEquiv1 dot_S4000x256_S256x512_S4000x512_1_0_0_1_n_n 256 rfl rfl).symm k) = ix2 k q :=
      funext fun a => Fin.ext (by
        match a with
        | ⟨0, _⟩ => exact (rhs_row _ _).trans hk
        | ⟨1, _⟩ => exact rhs_col _ _)
    rw [el, er, shapeCast_self, shapeCast_self]
    rfl
  · -- the bias row, broadcast down the 4000 rows, is read at row 0
    refine (broadcastTo_apply _ broadcasts_S1x512_S4000x512 (ix2 p q) (ix2 (0 : Fin 1) q) (fun a => ?_)).trans ?_
    · match a with
      | ⟨0, _⟩ => rfl
      | ⟨1, _⟩ => rfl
    · rw [shapeCast_self]

end Cert.KernelIdeal.Tile

end
-- ==== Proof.TileLayer.lean ====
/-
  One entry of one tile is the layer's entry at that tile's node.

  Suppose row p of the two loaded tiles holds row n of the aggregated messages and of the node features, the loaded
  weights are the stacked weights and the loaded bias row holds the bias. Then entry (p, q) of what the body stores is
  the sum over 256 stacked columns of Payload.lean plus the bias, whose first 128 terms are `agg[n, d] · W_l[q, d]` and
  whose last 128 are `x[n, d] · W_r[q, d]`: by Spec.lean's `stacked_sum` that is `layerAt … n q`.
  Everything is stated over plain arrays and coordinates; which node a tile's row is comes in as a hypothesis.
-/
import proofs.«160948_j54778012893227_2_alg».proof.Proof.Payload
import proofs.«160948_j54778012893227_2_alg».proof.Proof.Operands
import proofs.«160948_j54778012893227_2_alg».proof.Proof.Spec

noncomputable section

open scoped BigOperators

namespace Cert.KernelIdeal.Tile

open Cert.KernelIdeal Cert.KernelIdeal.Gen Cert.GraphConv Idealize.ShloMosaic Idealize.ShloMosaic.ValueIdx

/-- Entry (p, q) of the tile whose row p is node n. -/
theorem entry_is_layer (agg x : Nodes.Idx → EReal) (wl : Weights.Idx → EReal) (b : Bias.Idx → EReal) (wr : Weights.Idx → EReal)
    (v0 v3 : Vec Ideal S4000x128 .f32) (v6 : Vec Ideal S256x512 .bf16) (v9 : Vec Ideal S1x512 .f32)
    (p : Fin 4000) (q : Fin 512) (n : Fin 100000)
    (h0 : ∀ d : Fin 128, v0 (ix2 p d) = agg (ix2 n d))
    (h3 : ∀ d : Fin 128, v3 (ix2 p d) = x (ix2 n d))
    (h6 : ∀ k : Fin 256, v6 (ix2 k q) = Operands.stackedWeights wl wr (ix2 k q))
    (h9 : v9 (ix2 (0 : Fin 1) q) = b (ix1 q)) :
    k0_pay1 (F := Ideal) v0 v3 v6 v9 (ix2 p q) = layerAt agg x wl b wr n q := by
  rw [entry, h9]
  unfold layerAt
  refine stacked_sum (fun k : Fin 256 => sideBySide v0 v3 (ix2 p k) * v6 (ix2 k q))
    (fun d : Fin 128 => agg (ix2 n d) * wl (ix2 q d)) (fun d : Fin 128 => x (ix2 n d) * wr (ix2 q d)) (b (ix1 q))
    (fun d => ?_) (fun d => ?_)
  · show sideBySide v0 v3 (ix2 p (Fin.castAdd 128 d)) * v6 (ix2 (Fin.castAdd 128 d) q) = agg (ix2 n d) * wl (ix2 q d)
    rw [sideBySide_left, h0, h6, Operands.stackedWeights_upper]
  · show sideBySide v0 v3 (ix2 p (Fin.natAdd 128 d)) * v6 (ix2 (Fin.natAdd 128 d) q) = x (ix2 n d) * wr (ix2 q d)
    rw [sideBySide_right, h3, h6, Operands.stackedWeights_lower]

end Cert.KernelIdeal.Tile

end
-- ==== Proof.Tiles.lean ====
/-
  The blocks the kernel reads at a grid point, as rows of the arrays they are cut from.

  The kernel walks 25 grid points. At point t it reads rows 4000·t … 4000·t + 3999 of the aggregated messages and of
  the node features, the whole stacked weights and the whole bias row, and writes rows 4000·t … 4000·t + 3999 of the
  result. Which block each window is on at a point is decided once over the 25 points; then row p of a node tile at
  point t is row 4000·t + p of its array, and the weights' and the bias's one block is the array itself.
  Also here: the layer of the program's arguments, the array the result is shown to be.
-/
import proofs.«160948_j54778012893227_2_alg».proof.Proof.Gen.KernelIdeal.Frame
import proofs.«160948_j54778012893227_2_alg».proof.Proof.Gen.ReferenceIdeal.Read
import proofs.«160948_j54778012893227_2_alg».proof.Proof.Spec
import Idealize.ShloMosaic.Lib.Pipeline.Value
import Idealize.ShloMosaic.Lib.ValueIdx

noncomputable section

namespace Cert.KernelIdeal.Whole

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the program's arguments: the aggregated messages are the reference's aggregation of the features, the
    edges and the edge weights (unopened), then the node features, `W_l`, the bias and `W_r`. -/
def result (c : Dev nD) : S100000x512.Idx → EReal :=
  layer
    (Cert.ReferenceIdeal.Read.val_main_v16 (F := Ideal) (m ((c : Thread nD τ).loc main_arg0))
      (m ((c : Thread nD τ).loc main_arg1)) (m ((c : Thread nD τ).loc main_arg2)))
    (m ((c : Thread nD τ).loc main_arg0)) (m ((c : Thread nD τ).loc main_arg3))
    (m ((c : Thread nD τ).loc main_arg4)) (m ((c : Thread nD τ).loc main_arg5))

/-! ## Which block each window reads or writes at a grid point -/

/-- The node arrays and the result move down one block of 4000 rows per grid point; the weights and the bias stay. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's tile of aggregated messages is row 4000·t + p of the array the region finds. -/
theorem aggTile_apply (c : Dev nD) (t : Fin cfg0.N) (p : Fin 4000) (d : Fin 128) (n : Fin 100000) (hn : n.val = t.val * 4000 + p.val) :
    (iblk m c 0 t : Vec Ideal S4000x128 .f32) (ix2 p d)
      = (V m c (Pipeline.arrRef spec0 0) : S100000x128.Idx → EReal) (ix2 n d) := by
  obtain ⟨e0, e1, -⟩ := block_index t
  unfold iblk
  generalize V m c (Pipeline.arrRef spec0 0) = A
  rw [View.read_apply, cast_eq]
  refine congrArg A (funext fun a => Fin.ext ?_)
  match a with
  | ⟨0, _⟩ => show win0_0.index t (0 : Fin 2) * 4000 + 1 * p.val = n.val; omega
  | ⟨1, _⟩ => show win0_0.index t (1 : Fin 2) * 128 + 1 * d.val = d.val; omega
/-- Row p of point t's tile of node features is row 4000·t + p of the features. -/
theorem featTile_apply (c : Dev nD) (t : Fin cfg0.N) (p : Fin 4000) (d : Fin 128) (n : Fin 100000) (hn : n.val = t.val * 4000 + p.val) :
    (iblk m c 1 t : Vec Ideal S4000x128 .f32) (ix2 p d)
      = (V m c (Pipeline.arrRef spec0 1) : S100000x128.Idx → EReal) (ix2 n d) := by
  obtain ⟨-, -, e0, e1, -⟩ := block_index t
  unfold iblk
  generalize V m c (Pipeline.arrRef spec0 1) = A
  rw [View.read_apply, cast_eq]
  refine congrArg A (funext fun a => Fin.ext ?_)
  match a with
  | ⟨0, _⟩ => show win0_1.index t (0 : Fin 2) * 4000 + 1 * p.val = n.val; omega
  | ⟨1, _⟩ => show win0_1.index t (1 : Fin 2) * 128 + 1 * d.val = d.val; omega
/-- The weights' one block is the whole array. -/
theorem weightsTile_apply (c : Dev nD) (t : Fin cfg0.N) (k : Fin 256) (q : Fin 512) :
    (iblk m c 2 t : Vec Ideal S256x512 .bf16) (ix2 k q)
      = (V m c (Pipeline.arrRef spec0 2) : S256x512.Idx → EReal) (ix2 k q) := by
  obtain ⟨-, -, -, -, e0, e1, -⟩ := block_index t
  unfold iblk
  generalize V m c (Pipeline.arrRef spec0 2) = A
  rw [View.read_apply, cast_eq]
  refine congrArg A (funext fun a => Fin.ext ?_)
  match a with
  | ⟨0, _⟩ => show win0_2.index t (0 : Fin 2) * 256 + 1 * k.val = k.val; omega
  | ⟨1, _⟩ => show win0_2.index t (1 : Fin 2) * 512 + 1 * q.val = q.val; omega
/-- The bias row's one block is the whole row. -/
theorem biasTile_apply (c : Dev nD) (t : Fin cfg0.N) (z : Fin 1) (q : Fin 512) :
    (iblk m c 3 t : Vec Ideal S1x512 .f32) (ix2 z q)
      = (V m c (Pipeline.arrRef spec0 3) : S1x512.Idx → EReal) (ix2 z q) := by
  obtain ⟨-, -, -, -, -, -, e0, e1, -⟩ := block_index t
  unfold iblk
  generalize V m c (Pipeline.arrRef spec0 3) = A
  rw [View.read_apply, cast_eq]
  refine congrArg A (funext fun a => Fin.ext ?_)
  match a with
  | ⟨0, _⟩ => show win0_3.index t (0 : Fin 2) * 1 + 1 * z.val = z.val; omega
  | ⟨1, _⟩ => show win0_3.index t (1 : Fin 2) * 512 + 1 * q.val = q.val; omega
end Cert.KernelIdeal.Whole

end
-- ==== Proof.Writes.lean ====
/-
  What one grid point writes back is its block of the layer.

  By TileLayer.lean, entry (p, q) of what the body leaves at point t is the layer's entry (4000·t + p, q), once the four
  loaded blocks are known to be rows of the arrays the region finds (Tiles.lean) and those arrays are known as functions
  of the arguments (Found.lean). The place point t's block of the result puts (p, q) is exactly (4000·t + p, q).
-/
import proofs.«160948_j54778012893227_2_alg».proof.Proof.Gen.KernelIdeal.Value
import proofs.«160948_j54778012893227_2_alg».proof.Proof.Found
import proofs.«160948_j54778012893227_2_alg».proof.Proof.TileLayer
import proofs.«160948_j54778012893227_2_alg».proof.Proof.Tiles

noncomputable section

namespace Cert.KernelIdeal.Whole

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a grid point writes -/

/-- Entry j of what the body leaves at point t is the layer where point t's block of the result puts j. -/
theorem tile_at (c : Dev nD) (t : Fin cfg0.N) (j : S4000x512.Idx) :
    k0_pay1 (F := Ideal) (iblk m c 0 t) (iblk m c 1 t) (iblk m c 2 t) (iblk m c 3 t) j
      = result m c (((cfg0.win 4).blk t).view.emb j) := by
  obtain ⟨p, q, rfl⟩ : ∃ (p : Fin 4000) (q : Fin 512), j = ix2 p q := ⟨j 0, j 1, eq_ix2 j⟩
  obtain ⟨-, -, -, -, -, -, -, -, e0, e1⟩ := block_index t
  have ht : t.val < 25 := lt_of_lt_of_eq t.isLt N_0
  have hn : t.val * 4000 + p.val < 100000 := by have := p.isLt; omega
  have hemb : ((cfg0.win 4).blk t).view.emb (ix2 p q) = ix2 (⟨t.val * 4000 + p.val, hn⟩ : Fin 100000) q :=
    funext fun a => Fin.ext (by
      match a with
      | ⟨0, _⟩ => show win0_4.index t (0 : Fin 2) * 4000 + 1 * p.val = t.val * 4000 + p.val; omega
      | ⟨1, _⟩ => show win0_4.index t (1 : Fin 2) * 512 + 1 * q.val = q.val; omega)
  rw [hemb]
  unfold result
  rw [layer_ix2]
  refine Tile.entry_is_layer _ _ _ _ _ (iblk m c 0 t) (iblk m c 1 t) (iblk m c 2 t) (iblk m c 3 t) p q
    (⟨t.val * 4000 + p.val, hn⟩ : Fin 100000) (fun d => ?_) (fun d => ?_) (fun k => ?_) ?_
  · exact (aggTile_apply m c t p d ⟨t.val * 4000 + p.val, hn⟩ rfl).trans (congrFun (Found.aggregated m c) _)
  · exact (featTile_apply m c t p d ⟨t.val * 4000 + p.val, hn⟩ rfl).trans (congrFun (V_main_arg0 m c) _)
  · exact (weightsTile_apply m c t k q).trans (congrFun (Found.weights m c) _)
  · exact ((biasTile_apply m c t 0 q).trans (congrFun (Found.biasRow m c) _)).trans (Operands.biasRow_apply _ q)

/-- What point t writes back is point t's block of the layer. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S4000x128) zero_offsets, View.ld_unit_zero (S := S256x512) zero_offsets,
    View.ld_unit_zero (S := S1x512) zero_offsets]
  funext j
  rw [View.read_apply, cast_eq]
  exact tile_at m c t j

end Cert.KernelIdeal.Whole

end
-- ==== Proof.Whole.lean ====
/-
  From tiles to the whole array: after the kernel has run, the result array is the graph-convolution layer of the
  program's arguments.

  Every row r of the result lies in the block of grid point r / 4000, so the 25 blocks cover the array; each block was
  written with the matching block of one function, the layer (Writes.lean); an array written that way ends up equal to
  that function. The kernel's run, which the generated frame proof ends with the result array named block by block, is
  then re-posted with the result array at the layer.
-/
import proofs.«160948_j54778012893227_2_alg».proof.Proof.Gen.KernelIdeal.Value
import proofs.«160948_j54778012893227_2_alg».proof.Proof.Writes

noncomputable section

namespace Cert.KernelIdeal.Whole

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks cover the result -/

/-- An index of the result is in point t's block iff each coordinate is in the block's range on its axis. -/
theorem mem_block (t : Fin cfg0.N) (i : S100000x512.Idx) :
    i ∈ ((cfg0.win 4).blk t).view.set ↔ ∀ a : Fin 2, win0_4.index t a * S4000x512.size a ≤ (i a).val
      ∧ (i a).val < win0_4.index t a * S4000x512.size a + S4000x512.size a := by
  show i ∈ ((View.whole main_v24).slice (win0_4.rect t)).set ↔ _
  rw [View.set_slice_whole, Rect.mem_set_unit]
  exact Iff.rfl

/-- Row r of the result is in the block of point r / 4000. -/
theorem covered (i : S100000x512.Idx) :
    ∃ t : Fin cfg0.N, (cfg0.win 4).flush t = true ∧ i ∈ ((cfg0.win 4).blk t).view.set := by
  have hi0 : (i 0).val < 100000 := (i 0).isLt
  have hi1 : (i 1).val < 512 := (i 1).isLt
  have hN : cfg0.N = 25 := N_0
  have hlt : (i 0).val / 4000 < cfg0.N := by rw [hN]; omega
  obtain ⟨-, -, -, -, -, -, -, -, e0, e1⟩ := block_index ⟨(i 0).val / 4000, hlt⟩
  refine ⟨⟨(i 0).val / 4000, hlt⟩, flush0_4 _, ?_⟩
  rw [mem_block]
  intro a
  match a with
  | ⟨0, _⟩ =>
    show win0_4.index ⟨(i 0).val / 4000, hlt⟩ (0 : Fin 2) * 4000 ≤ (i 0).val
      ∧ (i 0).val < win0_4.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_4.index ⟨(i 0).val / 4000, hlt⟩ (1 : Fin 2) * 512 ≤ (i 1).val
      ∧ (i 1).val < win0_4.index ⟨(i 0).val / 4000, hlt⟩ (1 : Fin 2) * 512 + 512
    rw [e1]
    omega

/-! ## The array, and the run -/

/-- After the last grid point the result array is the layer. -/
theorem final (c : Dev nD) : (dats m 0 c).arrAt 4 cfg0.N = result m c :=
  (dats m 0 c).arrAt_eq_of_cover 4 (result m c) (fun t _ => flushed_eq m c t) covered

/-- Every weakly fair execution of the kernel's program terminates with the result array at the layer of the arguments
    and the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  A graph-convolution layer computed two ways gives the same array on the extended reals.

  Both programs take node features `x` (100000 × 128), edges (source and destination node of each of 1600000 edges),
  edge weights, weight matrices `W_l`, `W_r` (512 × 128) and a bias (512), and both first aggregate messages: each
  edge carries its source node's features scaled by the edge's weight into its destination node's row,
  `agg[n, ·] = ∑ over edges into n of weight · x[source, ·]`. They do this with the same gather, product and
  scatter-add; the kernel's program gathers from a copy of `x` in a shorter float format, which on the extended reals
  is `x` itself. So `agg` is one and the same function of the arguments on both sides, and it is never opened.

  They differ in the dense part. The reference computes

      out[n, o] = (∑ d, agg[n, d] · W_l[o, d] + b[o]) + ∑ d, x[n, d] · W_r[o, d].

  The kernel, 4000 nodes at a time, puts `agg[n, ·]` and `x[n, ·]` side by side as one row of 256 numbers, multiplies
  by `W_l` transposed stacked on `W_r` transposed (256 × 512), and adds the bias to the product. A sum of 256 terms
  is the sum of its first 128 plus the sum of its last 128, and addition of extended reals is commutative and
  associative, so the two are equal entry by entry — for all extended reals: the proof never uses that the inputs are
  finite.

  The pieces: Spec.lean (the layer as one function, and the law about the split sum), Reference.lean (the reference's
  result is the layer), Payload.lean and TileLayer.lean (one entry of one tile), Operands.lean and Found.lean (the arrays
  the program hands the kernel), Whole.lean (the 25 tiles make up the layer, and the kernel's run ends there). Here: each
  program runs to the end without fault and leaves its arguments alone, and the two runs end with equal results.
-/
import proofs.«160948_j54778012893227_2_alg».proof.Defs
import proofs.«160948_j54778012893227_2_alg».proof.Proof.Gen.Kernel
import proofs.«160948_j54778012893227_2_alg».proof.Proof.Gen.Kernel.Skeleton
import proofs.«160948_j54778012893227_2_alg».proof.Proof.Gen.Kernel.Launch
import proofs.«160948_j54778012893227_2_alg».proof.Proof.Gen.Kernel.Points
import proofs.«160948_j54778012893227_2_alg».proof.Proof.Gen.Kernel.Frame
import proofs.«160948_j54778012893227_2_alg».proof.Proof.Gen.KernelIdeal
import proofs.«160948_j54778012893227_2_alg».proof.Proof.Gen.KernelIdeal.Skeleton
import proofs.«160948_j54778012893227_2_alg».proof.Proof.Gen.KernelIdeal.Launch
import proofs.«160948_j54778012893227_2_alg».proof.Proof.Gen.KernelIdeal.Points
import proofs.«160948_j54778012893227_2_alg».proof.Proof.Gen.KernelIdeal.Frame
import proofs.«160948_j54778012893227_2_alg».proof.Proof.Gen.ReferenceIdeal
import proofs.«160948_j54778012893227_2_alg».proof.Proof.Gen.Pre_finite_inputs
import proofs.«160948_j54778012893227_2_alg».proof.Proof.Gen.KernelIdeal.Value
import proofs.«160948_j54778012893227_2_alg».proof.Proof.Gen.ReferenceIdeal.Run
import proofs.«160948_j54778012893227_2_alg».proof.Proof.Gen.ReferenceIdeal.Read
import proofs.«160948_j54778012893227_2_alg».proof.Proof.Reference
import proofs.«160948_j54778012893227_2_alg».proof.Proof.Whole
import Idealize.ShloMosaic.Adequacy
import Idealize.ShloMosaic.Init

noncomputable section

namespace Cert.Proof

open Idealize.ShloMosaic Idealize.ShloMosaic.TcCoe Idealize.SL.Sem

/-- The kernel's program as printed runs to the end, nothing faulting, its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference, a straight line of array operations, runs to its result; dropping the result leaves the frame. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel's program on the extended reals rewrote none of its operations: nothing to preserve. -/
theorem preserves : Cert.preserves_Kernel_KernelIdeal := trivial

/-- From memories that agree on the arguments, the kernel's program ends with its result array at the layer of its
    arguments (Whole.lean), the reference with its result at the layer of its own (Reference.lean): the same array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _ _ _).trans
    ((Cert.ReferenceIdeal.Layer.result_is_layer _ _ _ _ _ _).trans ?_)
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
